-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S100000x32 .f32) (main_arg1 : FVec F S100000x32 .f32) (main_arg2 : IVec S2x1600000 32) (main_arg3 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S100000x32 : Shape := ⟨2, ![100000, 32]⟩
abbrev S2x1600000 : Shape := ⟨2, ![2, 1600000]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S25000x128 : Shape := ⟨2, ![25000, 128]⟩
abbrev S4x4 : Shape := ⟨2, ![4, 4]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S5000x128 : Shape := ⟨2, ![5000, 128]⟩

abbrev nBuf : Space → Nat
  | .hbm => 38
  | .vmem => 7
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S32x32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S25000x128, .f32⟩
  | .hbm, ⟨22, _⟩ => ⟨S25000x128, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x1x4x1, .f32⟩
  | .hbm, ⟨31, _⟩ => ⟨S1x32x1x32, .f32⟩
  | .hbm, ⟨32, _⟩ => ⟨S4x32x4x32, .f32⟩
  | .hbm, ⟨33, _⟩ => ⟨S4x32x4x32, .f32⟩
  | .hbm, ⟨34, _⟩ => ⟨S4x32x4x32, .f32⟩
  | .hbm, ⟨35, _⟩ => ⟨S128x128, .f32⟩
  | .hbm, ⟨36, _⟩ => ⟨S25000x128, .f32⟩
  | .hbm, ⟨37, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S100000x32_S25000x128 : S100000x32.ShapeCasts S25000x128
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S25000x128_S100000x32 : S25000x128.ShapeCasts S100000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 36
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S32x32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S_, .f32⟩
  | .hbm, ⟨22, _⟩ => ⟨S100000x32, .f32⟩
  | .hbm, ⟨23, _⟩ => ⟨S100000x32, .f32⟩
  | .hbm, ⟨24, _⟩ => ⟨S_, .f32⟩
  | .hbm, ⟨25, _⟩ => ⟨S100000x32, .f32⟩
  | .hbm, ⟨26, _⟩ => ⟨S100000x32, .f32⟩
  | .hbm, ⟨27, _⟩ => ⟨S100000x32, .f32⟩
  | .hbm, ⟨28, _⟩ => ⟨S_, .f32⟩
  | .hbm, ⟨29, _⟩ => ⟨S100000x32, .f32⟩
  | .hbm, ⟨30, _⟩ => ⟨S100000x32, .f32⟩
  | .hbm, ⟨31, _⟩ => ⟨S100000x32, .f32⟩
  | .hbm, ⟨32, _⟩ => ⟨S_, .f32⟩
  | .hbm, ⟨33, _⟩ => ⟨S100000x32, .f32⟩
  | .hbm, ⟨34, _⟩ => ⟨S100000x32, .f32⟩
  | .hbm, ⟨35, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Payload.lean ====
import proofs.«181893_j34591666602120_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! The body of the combine kernel at one element.

The body loads a [5000,128] block `A` of the packed aggregate, the matching block `X` of the packed initial features and the
[128,128] weight `Wb`, forms `comb = c₁·A + c₂·X`, multiplies `comb` by `Wb` on the matrix unit (the two narrowings to bf16 are the
identity on extended reals, the accumulator is zero) and stores `c₃·comb + c₄·(comb·Wb)`.  Read at (p, q) this is
`c₃·comb(p,q) + c₄·Σ_{k<128} comb(p,k)·Wb(k,q)`; the four scalars stay the f32 words the program prints. -/

noncomputable section

open Idealize.ShloMosaic Idealize.ShloMosaic.TcCoe Idealize.SL.Sem
open Idealize.ShloMosaic.ValueIdx

namespace Cert.KernelIdeal.Hand

open Cert.KernelIdeal Cert.KernelIdeal.Gen

/-- The operand indices of the [5000,128]·[128,128] product at output index `i` and contraction index `q`, coordinate by coordinate:
    the left operand is read at (i₀, q), the right one at (q, i₁). -/
theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product at (p, q): the sum over the 128 lanes. -/
theorem mm_apply (L : FVec Ideal S5000x128 .bf16) (R : FVec Ideal S128x128 .bf16) (p : Fin 5000) (q : Fin 128) :
    matmul dot_S5000x128_S128x128_S5000x128_1_0_0_1_n_n none L R (constant S5000x128 .f32 0x00000000#32) (ix2 p q)
      = ∑ k : Fin 128, L (ix2 p k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- The body's stored value at (p, q) of its block. -/
theorem pay_apply (A X : Vec Ideal S5000x128 .f32) (Wb : Vec Ideal S128x128 .f32) (p : Fin 5000) (q : Fin 128) :
    k0_pay1 (F := Ideal) A X Wb (ix2 p q)
      = Ideal.ofBits .f32 0x3F7228A7#32 * (Ideal.ofBits .f32 0x3F666666#32 * A (ix2 p q) + Ideal.ofBits .f32 0x3DCCCCCD#32 * X (ix2 p q))
        + Ideal.ofBits .f32 0x3D5D7597#32 * ∑ k : Fin 128, (Ideal.ofBits .f32 0x3F666666#32 * A (ix2 p k) + Ideal.ofBits .f32 0x3DCCCCCD#32 * X (ix2 p k)) * Wb (ix2 k q) := by
  unfold k0_pay1
  simp only [shapeCast_self]
  rw [addf_apply, mulf_apply, mulf_apply, mm_apply]
  rfl

end Cert.KernelIdeal.Hand
end
-- ==== Proof.Blocks.lean ====
import proofs.«181893_j34591666602120_2_alg».proof.Proof.Gen.KernelIdeal.Frame
import proofs.«181893_j34591666602120_2_alg».proof.Proof.Payload
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! From blocks to the array.

The grid has five points; point t reads rows 5000·t … 5000·t + 4999 of the packed aggregate and of the packed features, the whole
[128,128] weight, and writes the same rows of the [25000,128] result.  So what each point writes back is a block of ONE function
`packed A X Wb` of the three arrays the region finds, the five blocks tile the result, and the result array ends holding that
function.  Every statement about a block is made for arbitrary contents of the arrays, so that the contents the host prefix
computed are never opened here. -/

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- The packed result at row r, lane q, as a function of the packed aggregate A, the packed features X and the weight Wb. -/
def packedAt (A X : S25000x128.Idx → EReal) (Wb : S128x128.Idx → EReal) (r : Fin 25000) (q : Fin 128) : EReal :=
  Ideal.ofBits .f32 0x3F7228A7#32 * (Ideal.ofBits .f32 0x3F666666#32 * A (ix2 r q) + Ideal.ofBits .f32 0x3DCCCCCD#32 * X (ix2 r q))
    + Ideal.ofBits .f32 0x3D5D7597#32 * ∑ k : Fin 128, (Ideal.ofBits .f32 0x3F666666#32 * A (ix2 r k) + Ideal.ofBits .f32 0x3DCCCCCD#32 * X (ix2 r k)) * Wb (ix2 k q)

/-- The packed result as an array over [25000,128]. -/
def packed (A X : S25000x128.Idx → EReal) (Wb : S128x128.Idx → EReal) : S25000x128.Idx → EReal := fun i =>
  packedAt A X Wb ⟨(i 0).val, idx2_lt0 i⟩ ⟨(i 1).val, idx2_lt1 i⟩

/-- The block index maps over the grid: the three row-blocked windows are at block (t, 0), the weight always at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Element (p, k) of block t of a row-blocked array is element (5000·t + p, k) of the array (a block's coordinate is block index × block size + the coordinate inside the block). -/
theorem read_blk0 (c : Dev nD) (Y : Buf (Elt Ideal) ((c : Thread nD τ).loc main_v14)) (t : Fin cfg0.N) (p : Fin 5000) (k : Fin 128) (hr : 5000 * t.val + p.val < 25000) :
    (((cfg0.win 0).blk t).view.read (Elt Ideal) Y : Vec Ideal S5000x128 .f32) (ix2 p k) = (Y : S25000x128.Idx → EReal) (ix2 ⟨5000 * t.val + p.val, hr⟩ k) := by
  obtain ⟨e0, e1, -⟩ := idx_facts t
  rw [View.read_apply]
  show Y _ = Y _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem read_blk1 (c : Dev nD) (Y : Buf (Elt Ideal) ((c : Thread nD τ).loc main_v15)) (t : Fin cfg0.N) (p : Fin 5000) (k : Fin 128) (hr : 5000 * t.val + p.val < 25000) :
    (((cfg0.win 1).blk t).view.read (Elt Ideal) Y : Vec Ideal S5000x128 .f32) (ix2 p k) = (Y : S25000x128.Idx → EReal) (ix2 ⟨5000 * t.val + p.val, hr⟩ k) := by
  obtain ⟨-, -, e0, e1, -⟩ := idx_facts t
  rw [View.read_apply]
  show Y _ = Y _
  congr 1
  funext a; apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The weight's one block is the whole weight. -/
theorem read_blk2 (c : Dev nD) (Y : Buf (Elt Ideal) ((c : Thread nD τ).loc main_v22)) (t : Fin cfg0.N) (k q : Fin 128) :
    (((cfg0.win 2).blk t).view.read (Elt Ideal) Y : Vec Ideal S128x128 .f32) (ix2 k q) = (Y : S128x128.Idx → EReal) (ix2 k q) := by
  obtain ⟨-, -, -, -, e0, e1, -⟩ := idx_facts t
  rw [View.read_apply]
  show Y _ = Y _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem read_blk3 (c : Dev nD) (Y : Buf (Elt Ideal) ((c : Thread nD τ).loc main_v23)) (t : Fin cfg0.N) (p : Fin 5000) (k : Fin 128) (hr : 5000 * t.val + p.val < 25000) :
    (((cfg0.win 3).blk t).view.read (Elt Ideal) Y : Vec Ideal S5000x128 .f32) (ix2 p k) = (Y : S25000x128.Idx → EReal) (ix2 ⟨5000 * t.val + p.val, hr⟩ k) := by
  obtain ⟨-, -, -, -, -, -, e0, e1⟩ := idx_facts t
  rw [View.read_apply]
  show Y _ = Y _
  congr 1
  funext a; apply Fin.ext
  match a with
  | ⟨0, _⟩ => show win0_3.index t (0 : Fin 2) * 5000 + 1 * p.val = 5000 * t.val + p.val; rw [e0]; omega
  | ⟨1, _⟩ => show win0_3.index t (1 : Fin 2) * 128 + 1 * k.val = k.val; rw [e1]; omega

/-- The body's value on three blocks that are rows 5000·t … 5000·t + 4999 of A and X and the whole of Wb is the packed result on those rows. -/
theorem pay_rows (B0 B1 : Vec Ideal S5000x128 .f32) (B2 : Vec Ideal S128x128 .f32) (Y0 Y1 : S25000x128.Idx → EReal) (Y2 : S128x128.Idx → EReal) (tv : Nat)
    (h0 : ∀ (p : Fin 5000) (k : Fin 128) (hr : 5000 * tv + p.val < 25000), B0 (ix2 p k) = Y0 (ix2 ⟨5000 * tv + p.val, hr⟩ k))
    (h1 : ∀ (p : Fin 5000) (k : Fin 128) (hr : 5000 * tv + p.val < 25000), B1 (ix2 p k) = Y1 (ix2 ⟨5000 * tv + p.val, hr⟩ k))
    (h2 : ∀ (k q : Fin 128), B2 (ix2 k q) = Y2 (ix2 k q)) (p : Fin 5000) (q : Fin 128) (hr : 5000 * tv + p.val < 25000) :
    k0_pay1 (F := Ideal) B0 B1 B2 (ix2 p q) = packedAt Y0 Y1 Y2 ⟨5000 * tv + p.val, hr⟩ q := by
  rw [pay_apply]
  unfold packedAt
  rw [h0 p q hr, h1 p q hr]
  congr 2
  refine Finset.sum_congr rfl fun k _ => ?_
  rw [h0 p k hr, h1 p k hr, h2 k q]

/-- What a point writes back, for ANY contents of the three input arrays: the block of the packed result. -/
theorem flushed_gen (c : Dev nD) (t : Fin cfg0.N) (Y0 : Buf (Elt Ideal) ((c : Thread nD τ).loc main_v14)) (Y1 : Buf (Elt Ideal) ((c : Thread nD τ).loc main_v15))
    (Y2 : Buf (Elt Ideal) ((c : Thread nD τ).loc main_v22)) :
    (out0_3 (((cfg0.win 0).blk t).view.read (Elt Ideal) Y0) (((cfg0.win 1).blk t).view.read (Elt Ideal) Y1) (((cfg0.win 2).blk t).view.read (Elt Ideal) Y2) : Vec Ideal S5000x128 .f32)
      = ((cfg0.win 3).blk t).view.read (Elt Ideal) (packed Y0 Y1 Y2) := by
  unfold out0_3
  rw [View.canon_unit_zero hz]
  simp only [View.ld_unit_zero (S := S5000x128) hz, View.ld_unit_zero (S := S128x128) hz]
  have hN : cfg0.N = 5 := N_0
  have ht : t.val < 5 := hN ▸ t.isLt
  funext j
  obtain ⟨p, q, rfl⟩ : ∃ (p : Fin 5000) (q : Fin 128), j = ix2 p q := ⟨j 0, j 1, eq_ix2 j⟩
  have hr : 5000 * t.val + p.val < 25000 := by have := p.isLt; omega
  refine Eq.trans ?_ (read_blk3 c (packed Y0 Y1 Y2) t p q hr).symm
  exact pay_rows _ _ _ Y0 Y1 Y2 t.val (fun p k hr => read_blk0 c Y0 t p k hr) (fun p k hr => read_blk1 c Y1 t p k hr)
    (fun k q => read_blk2 c Y2 t k q) p q hr

/-- At the arrays the region finds. -/
theorem flushed_eq (c : Dev nD) (t : Fin cfg0.N) :
    (dats m 0 c).flushed 3 t = ((cfg0.win 3).blk t).view.read (Elt Ideal) (packed (V m c main_v14) (V m c main_v15) (V m c main_v22)) := by
  show (cfg0.win 3).cut (grid0.coords t) ((dats m 0 c).after 3 t) = _
  rw [after0_3]
  exact flushed_gen c t (V m c main_v14) (V m c main_v15) (V m c main_v22)

/-- An index is in point t's block iff each coordinate is in the block's range. -/
theorem mem_blk (t : Fin cfg0.N) (i : S25000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23).slice (win0_3.rect t)).set ↔ _
  rw [View.set_slice_whole, Rect.mem_set_unit]
  exact Iff.rfl

/-- Row r of the result lies in the block of point r / 5000. -/
theorem cover (i : S25000x128.Idx) : ∃ t : Fin cfg0.N, (cfg0.win 3).flush t = true ∧ i ∈ ((cfg0.win 3).blk t).view.set := by
  have hN : cfg0.N = 5 := N_0
  have h0 : (i 0).val < 25000 := (i 0).isLt
  have h1 : (i 1).val < 128 := (i 1).isLt
  have htv : (i 0).val / 5000 < cfg0.N := by rw [hN]; omega
  obtain ⟨-, -, -, -, -, -, e0, e1⟩ := idx_facts ⟨(i 0).val / 5000, htv⟩
  refine ⟨⟨(i 0).val / 5000, htv⟩, flush0_3 _, ?_⟩
  rw [mem_blk]
  intro a
  match a with
  | ⟨0, _⟩ =>
    show win0_3.index ⟨(i 0).val / 5000, htv⟩ (0 : Fin 2) * 5000 ≤ (i 0).val ∧ (i 0).val < win0_3.index ⟨(i 0).val / 5000, htv⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, htv⟩ (1 : Fin 2) * 128 ≤ (i 1).val ∧ (i 1).val < win0_3.index ⟨(i 0).val / 5000, htv⟩ (1 : Fin 2) * 128 + 128
    rw [e1]; omega

/-- The result array after the region. -/
theorem final3 (c : Dev nD) : (dats m 0 c).arrAt 3 cfg0.N = packed (V m c main_v14) (V m c main_v15) (V m c main_v22) :=
  (dats m 0 c).arrAt_eq_of_cover 3 _ (fun t _ => flushed_eq m c t) cover

end Cert.KernelIdeal.Hand
end
-- ==== Proof.KernelRun.lean ====
import proofs.«181893_j34591666602120_2_alg».proof.Proof.Gen.KernelIdeal.Frame
import proofs.«181893_j34591666602120_2_alg».proof.Proof.Blocks
import Idealize.ShloMosaic.Lib.Pipeline.Value
import Idealize.ShloMosaic.Lib.ValueIdx
import Idealize.ShloMosaic.Lib.StableHlo.Run
import Idealize.ShloMosaic.Lib.Tactic

/-! The kernel program's run, read.

Around the region the program reshapes the neighbour sum and the initial features to [25000,128], builds the block-diagonal weight,
and after the region reshapes the region's [25000,128] result back to [100000,32].  The generated frame run gives the region's
result array and, for every other buffer, what the operations after the region leave; here the one reshape after the region is
read off, so that the program's result is named as one function of the arrays the region finds. -/

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- The result: the packed result of the arrays the region finds, reshaped back to [100000,32]. -/
def result (c : Dev nD) : S100000x32.Idx → EReal :=
  shapeCast S100000x32 (packed (V m c main_v14) (V m c main_v15) (V m c main_v22)) shapeCasts_S25000x128_S100000x32

/-- After the region one reshape remains: it reads the region's result array, which holds the packed result. -/
theorem tail_eq (c : Dev nD) : (Pipeline.afterTail₀ cfgs (dats m) 0 (V0 m) [hostOps1] c main_v24 : S100000x32.Idx → EReal) = result m c := by
  unfold Pipeline.afterTail₀
  show StableHlo.after hostOps1 _ (Proc.devRef .tc main_v24) = _
  after_results
  have e : Pipeline.withArrays (cfgs 0).spec c (V0 m c) (fun w => (dats m 0 c).arrAt w (cfgs 0).N) (Proc.devRef .tc main_v23)
      = packed (V m c main_v14) (V m c main_v15) (V m c main_v22) :=
    (Pipeline.withArrays_arr spec0 launch0.win.arr_inj c _ _ 3).trans (final3 m c)
  rw [e]
  rfl

/-- The kernel's run, read: every weakly fair execution ends with the result array at `result` and the arguments unchanged. -/
theorem run : θ_run defs (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((h c).2 main_v24 (Pipeline.mem_restRefs_of main_v24 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩) (run_main m ρ)

end Cert.KernelIdeal.Hand
end
-- ==== Proof.LibKron.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
# The Kronecker product of an identity matrix with a square matrix, and row packing

General, program-independent facts about five array expressions, each read at one index:

* the 4 x 4 identity matrix written as "row number equals column number", converted to a float;
* the Kronecker product of a 4 x 4 matrix `E` and a 32 x 32 matrix `W`, written as two broadcasts of each factor to
  `[4, 32, 4, 32]`, an elementwise product and a row-major reshape to `[128, 128]`: its element `(k, c)` is
  `E (k / 32, c / 32) * W (k % 32, c % 32)`;
* the row-major reshape `[100000, 32] → [25000, 128]` (four consecutive rows packed into one) and its inverse;
* the contraction of a packed row with the block-diagonal matrix `I₄ ⊗ W`: only the block on the diagonal survives, an
  identity of sums over the extended reals that needs no finiteness (`0 * x = 0` for every extended real `x`).

The shapes are literal structures, so the statements unify with any program's own abbreviations of the same shapes.
-/

noncomputable section

open scoped BigOperators
open Idealize.ShloMosaic Idealize.ShloMosaic.ValueIdx

namespace Cert.Lib.Kron

/-- The scalar shape. -/
abbrev T0 : Shape := ⟨0, ![]⟩
/-- `[4, 4]`. -/
abbrev T4x4 : Shape := ⟨2, ![4, 4]⟩
/-- `[32, 32]`. -/
abbrev T32x32 : Shape := ⟨2, ![32, 32]⟩
/-- `[4, 1, 4, 1]`: a `[4, 4]` matrix with a unit axis after each of its axes. -/
abbrev T4x1x4x1 : Shape := ⟨4, ![4, 1, 4, 1]⟩
/-- `[1, 32, 1, 32]`: a `[32, 32]` matrix with a unit axis before each of its axes. -/
abbrev T1x32x1x32 : Shape := ⟨4, ![1, 32, 1, 32]⟩
/-- `[4, 32, 4, 32]`: the Kronecker product before its axes are merged in pairs. -/
abbrev T4x32x4x32 : Shape := ⟨4, ![4, 32, 4, 32]⟩
/-- `[128, 128]`. -/
abbrev T128x128 : Shape := ⟨2, ![128, 128]⟩
/-- `[100000, 32]`. -/
abbrev T100000x32 : Shape := ⟨2, ![100000, 32]⟩
/-- `[25000, 128]`. -/
abbrev T25000x128 : Shape := ⟨2, ![25000, 128]⟩

/-- The 4 x 4 identity matrix, written as the float of the bit "row number plus zero equals column number": its element
    `(a, b)` is `1` when `a = b` and `0` otherwise. -/
theorem eye_apply (h0 : T0.BroadcastsInDim T4x4 (![] : Fin 0 → Fin T4x4.rank)) (a b : Fin 4) :
    (uitofp (F := Ideal) FTy.f32 (cmpi CmpIPredicate.eq (addi (iotaInDim T4x4 32 0) (broadcastInDim T4x4 ![] h0 (constantI T0 32 0#32))) (iotaInDim T4x4 32 1))) (ix2 a b)
      = if a = b then (1 : EReal) else 0 := by
  have hb : broadcastInDim T4x4 ![] h0 (constantI T0 32 0#32) (ix2 a b) = 0#32 :=
    (broadcastInDim_apply _ h0 (constantI T0 32 0#32) (ix2 a b) ix0 (fun x => x.elim0)).trans rfl
  show (((IntOp.cmpi CmpIPredicate.eq (IntOp.addi (BitVec.ofNat 32 a.val)
      (broadcastInDim T4x4 ![] h0 (constantI T0 32 0#32) (ix2 a b))) (BitVec.ofNat 32 b.val)).toNat : ℝ) : EReal) = _
  rw [hb]
  fin_cases a <;> fin_cases b <;> simp [IntOp.cmpi, IntOp.addi]

/-- The Kronecker product of `E : [4, 4]` and `W : [32, 32]`, written as the elementwise product of the two factors
    broadcast to `[4, 32, 4, 32]` (`E` along axes 0 and 2, `W` along axes 1 and 3) and reshaped row-major to
    `[128, 128]`: the row-major position of `(k, c)` in `[128, 128]` is `k * 128 + c`, that of `(a, i, b, j)` in
    `[4, 32, 4, 32]` is `((a * 32 + i) * 4 + b) * 32 + j`, so `a = k / 32`, `i = k % 32`, `b = c / 32`, `j = c % 32`
    and the element is `E (k / 32, c / 32) * W (k % 32, c % 32)`. -/
theorem kron_apply (h1 : T4x4.BroadcastsInDim T4x1x4x1 (![0, 2] : Fin 2 → Fin T4x1x4x1.rank))
    (h2 : T32x32.BroadcastsInDim T1x32x1x32 (![1, 3] : Fin 2 → Fin T1x32x1x32.rank))
    (h3 : T4x1x4x1.BroadcastsInDim T4x32x4x32 (![0, 1, 2, 3] : Fin 4 → Fin T4x32x4x32.rank))
    (h4 : T1x32x1x32.BroadcastsInDim T4x32x4x32 (![0, 1, 2, 3] : Fin 4 → Fin T4x32x4x32.rank))
    (sc : T4x32x4x32.ShapeCasts T128x128)
    (E : FVec Ideal T4x4 .f32) (W : FVec Ideal T32x32 .f32) (k c : Fin 128) :
    shapeCast T128x128 (mulf (broadcastInDim T4x32x4x32 ![0, 1, 2, 3] h3 (broadcastInDim T4x1x4x1 ![0, 2] h1 E))
        (broadcastInDim T4x32x4x32 ![0, 1, 2, 3] h4 (broadcastInDim T1x32x1x32 ![1, 3] h2 W))) sc (ix2 k c)
      = E (ix2 (⟨k.val / 32, by omega⟩ : Fin 4) (⟨c.val / 32, by omega⟩ : Fin 4)) * W (ix2 (⟨k.val % 32, by omega⟩ : Fin 32) (⟨c.val % 32, by omega⟩ : Fin 32)) := by
  have hk : k.val < 128 := k.isLt
  have hc : c.val < 128 := c.isLt
  -- the reshape: same row-major position
  refine (shapeCast_apply _ sc (ix2 k c)
    (ix4 (⟨k.val / 32, by omega⟩ : Fin 4) (⟨k.val % 32, by omega⟩ : Fin 32)
      (⟨c.val / 32, by omega⟩ : Fin 4) (⟨c.val % 32, by omega⟩ : Fin 32)) ?_).trans ?_
  · rw [Shape.rowMajor_val_four, Shape.rowMajor_val_two]
    show ((k.val / 32 * 32 + k.val % 32) * 4 + c.val / 32) * 32 + c.val % 32 = k.val * 128 + c.val
    omega
  -- the product, then each factor's two broadcasts
  rw [mulf_apply]
  congr 1
  · refine (broadcastInDim_apply _ h3 _ _
      (ix4 (⟨k.val / 32, by omega⟩ : Fin 4) (⟨0, Nat.one_pos⟩ : Fin 1) (⟨c.val / 32, by omega⟩ : Fin 4) (⟨0, Nat.one_pos⟩ : Fin 1))
      (fun x => match x with
        | ⟨0, _⟩ => by show k.val / 32 = if (4 : Nat) = 1 then 0 else k.val / 32; rw [if_neg (by decide)]
        | ⟨1, _⟩ => by show 0 = if (1 : Nat) = 1 then 0 else k.val % 32; rw [if_pos rfl]
        | ⟨2, _⟩ => by show c.val / 32 = if (4 : Nat) = 1 then 0 else c.val / 32; rw [if_neg (by decide)]
        | ⟨3, _⟩ => by show 0 = if (1 : Nat) = 1 then 0 else c.val % 32; rw [if_pos rfl])).trans ?_
    exact broadcastInDim_apply _ h1 E _
      (ix2 (⟨k.val / 32, by omega⟩ : Fin 4) (⟨c.val / 32, by omega⟩ : Fin 4))
      (fun x => match x with
        | ⟨0, _⟩ => by show k.val / 32 = if (4 : Nat) = 1 then 0 else k.val / 32; rw [if_neg (by decide)]
        | ⟨1, _⟩ => by show c.val / 32 = if (4 : Nat) = 1 then 0 else c.val / 32; rw [if_neg (by decide)])
  · refine (broadcastInDim_apply _ h4 _ _
      (ix4 (⟨0, Nat.one_pos⟩ : Fin 1) (⟨k.val % 32, by omega⟩ : Fin 32) (⟨0, Nat.one_pos⟩ : Fin 1) (⟨c.val % 32, by omega⟩ : Fin 32))
      (fun x => match x with
        | ⟨0, _⟩ => by show 0 = if (1 : Nat) = 1 then 0 else k.val / 32; rw [if_pos rfl]
        | ⟨1, _⟩ => by show k.val % 32 = if (32 : Nat) = 1 then 0 else k.val % 32; rw [if_neg (by decide)]
        | ⟨2, _⟩ => by show 0 = if (1 : Nat) = 1 then 0 else c.val / 32; rw [if_pos rfl]
        | ⟨3, _⟩ => by show c.val % 32 = if (32 : Nat) = 1 then 0 else c.val % 32; rw [if_neg (by decide)])).trans ?_
    exact broadcastInDim_apply _ h2 W _
      (ix2 (⟨k.val % 32, by omega⟩ : Fin 32) (⟨c.val % 32, by omega⟩ : Fin 32))
      (fun x => match x with
        | ⟨0, _⟩ => by show k.val % 32 = if (32 : Nat) = 1 then 0 else k.val % 32; rw [if_neg (by decide)]
        | ⟨1, _⟩ => by show c.val % 32 = if (32 : Nat) = 1 then 0 else c.val % 32; rw [if_neg (by decide)])

/-- The row-major reshape `[100000, 32] → [25000, 128]` packs four consecutive rows into one: the position of `(r, q)`
    in `[25000, 128]` is `r * 128 + q = (4 * r + q / 32) * 32 + q % 32`, the position of `(4 * r + q / 32, q % 32)` in
    `[100000, 32]`. -/
theorem pack_apply {α : Type} (sc : T100000x32.ShapeCasts T25000x128) (x : T100000x32.Idx → α) (r : Fin 25000) (q : Fin 128) :
    shapeCast T25000x128 x sc (ix2 r q) = x (ix2 (⟨4 * r.val + q.val / 32, by omega⟩ : Fin 100000) (⟨q.val % 32, by omega⟩ : Fin 32)) := by
  have hr : r.val < 25000 := r.isLt
  have hq : q.val < 128 := q.isLt
  refine shapeCast_apply x sc (ix2 r q) _ ?_
  rw [Shape.rowMajor_val_two, Shape.rowMajor_val_two]
  show (4 * r.val + q.val / 32) * 32 + q.val % 32 = r.val * 128 + q.val
  omega

/-- The row-major reshape `[25000, 128] → [100000, 32]` unpacks them: the position of `(n, d)` in `[100000, 32]` is
    `n * 32 + d = (n / 4) * 128 + ((n % 4) * 32 + d)`, the position of `(n / 4, (n % 4) * 32 + d)` in `[25000, 128]`. -/
theorem unpack_apply {α : Type} (sc : T25000x128.ShapeCasts T100000x32) (y : T25000x128.Idx → α) (n : Fin 100000) (d : Fin 32) :
    shapeCast T100000x32 y sc (ix2 n d) = y (ix2 (⟨n.val / 4, by omega⟩ : Fin 25000) (⟨(n.val % 4) * 32 + d.val, by omega⟩ : Fin 128)) := by
  have hn : n.val < 100000 := n.isLt
  have hd : d.val < 32 := d.isLt
  refine shapeCast_apply y sc (ix2 n d) _ ?_
  rw [Shape.rowMajor_val_two, Shape.rowMajor_val_two]
  show n.val / 4 * 128 + (n.val % 4 * 32 + d.val) = n.val * 32 + d.val
  omega

/-- A sum over `Fin 128` of a function of the quotient and the remainder by 32 is the double sum over `Fin 4` and
    `Fin 32`: `k ↦ (k / 32, k % 32)` is a bijection of `Fin 128` with `Fin 4 × Fin 32`. -/
theorem sum_divMod (F : Fin 4 → Fin 32 → EReal) :
    ∑ k : Fin 128, F (⟨k.val / 32, by omega⟩ : Fin 4) (⟨k.val % 32, by omega⟩ : Fin 32) = ∑ a : Fin 4, ∑ i : Fin 32, F a i := by
  rw [← Fintype.sum_prod_type' (f := F)]
  exact Fintype.sum_equiv (finProdFinEquiv (m := 4) (n := 32)).symm _ _ (fun k => rfl)

/-- Contracting a row of four packed blocks with the block-diagonal matrix `I₄ ⊗ W` keeps the one block on the
    diagonal: the terms of the other three blocks are `f * (0 * W) = 0`, which holds for every extended real, infinite
    ones included, so no finiteness is assumed. -/
theorem sum_blockdiag (f : Fin 4 → Fin 32 → EReal) (W : Fin 32 → Fin 32 → EReal) (b : Fin 4) (d : Fin 32) :
    ∑ k : Fin 128, f (⟨k.val / 32, by omega⟩ : Fin 4) (⟨k.val % 32, by omega⟩ : Fin 32) * ((if (⟨k.val / 32, by omega⟩ : Fin 4) = b then (1 : EReal) else 0) * W (⟨k.val % 32, by omega⟩ : Fin 32) d)
      = ∑ j : Fin 32, f b j * W j d := by
  refine (sum_divMod (fun a i => f a i * ((if a = b then (1 : EReal) else 0) * W i d))).trans ?_
  refine (Finset.sum_eq_single b (fun a _ hab => ?_) (fun hb => absurd (Finset.mem_univ b) hb)).trans ?_
  · refine Finset.sum_eq_zero (fun i _ => ?_)
    rw [if_neg hab, zero_mul, mul_zero]
  · refine Finset.sum_congr rfl (fun i _ => ?_)
    rw [if_pos rfl, one_mul]

end Cert.Lib.Kron

end
-- ==== Proof.Value.lean ====
import proofs.«181893_j34591666602120_2_alg».proof.Proof.Gen.ReferenceIdeal.Read
import proofs.«181893_j34591666602120_2_alg».proof.Proof.Blocks
import proofs.«181893_j34591666602120_2_alg».proof.Proof.LibKron
import Idealize.ShloMosaic.Lib.Pipeline.Value
import Idealize.ShloMosaic.Lib.ValueIdx
import Idealize.ShloMosaic.PureOps.Ideal.Laws

/-! The two programs compute one function.

With agg the neighbour sum, comb = c₁·agg + c₂·x₁ and W the [32,32] weight, the layer's output is
`out(n,d) = c₃·comb(n,d) + c₄·Σ_{j<32} comb(n,j)·W(j,d)`.

The kernel's program packs four consecutive rows of agg and of x₁ into one row of 128 lanes, multiplies the packed rows by the
block-diagonal matrix I₄ ⊗ W and unpacks: lane 32·a + j of packed row r is entry j of row 4·r + a, the weight at (32·a + j, 32·b + e)
is [a = b]·W(j,e), so the contraction over the 128 lanes keeps the 32 terms of the block on the diagonal (the others are x·(0·w) = 0,
true of every extended real), and the result at packed position (n / 4, 32·(n % 4) + d) is out(n,d).

The reference computes out(n,d) directly.  The neighbour sum is the same term of the same arguments on both sides and stays a
variable throughout. -/

noncomputable section

open Idealize.ShloMosaic Idealize.ShloMosaic.TcCoe Idealize.SL.Sem
open Idealize.ShloMosaic.ValueIdx

namespace Cert.KernelIdeal.Hand

open Cert.KernelIdeal Cert.KernelIdeal.Gen

/-- The combination c₁·agg + c₂·x₁ at node n, feature j. -/
def combAt (agg x1 : S100000x32.Idx → EReal) (n : Fin 100000) (j : Fin 32) : EReal :=
  Ideal.ofBits .f32 0x3F666666#32 * agg (ix2 n j) + Ideal.ofBits .f32 0x3DCCCCCD#32 * x1 (ix2 n j)

/-- The layer's output at node n, feature d: c₃·comb(n,d) + c₄·Σ_j comb(n,j)·W(j,d). -/
def outAt (agg x1 : S100000x32.Idx → EReal) (W : S32x32.Idx → EReal) (n : Fin 100000) (d : Fin 32) : EReal :=
  Ideal.ofBits .f32 0x3F7228A7#32 * combAt agg x1 n d + Ideal.ofBits .f32 0x3D5D7597#32 * ∑ j : Fin 32, combAt agg x1 n j * W (ix2 j d)

/-- The block-diagonal weight as the host builds it from W. -/
def blockW (W : S32x32.Idx → EReal) : S128x128.Idx → EReal :=
  shapeCast S128x128 (mulf
      (broadcastInDim S4x32x4x32 ![0, 1, 2, 3] bcast_S4x1x4x1_S4x32x4x32_0_1_2_3
        (broadcastInDim S4x1x4x1 ![0, 2] bcast_S4x4_S4x1x4x1_0_2
          (uitofp (F := Ideal) FTy.f32 (cmpi CmpIPredicate.eq (addi (iotaInDim S4x4 32 0) (broadcastInDim S4x4 ![] bcast_S_S4x4 (constantI S_ 32 0#32))) (iotaInDim S4x4 32 1)))))
      (broadcastInDim S4x32x4x32 ![0, 1, 2, 3] bcast_S1x32x1x32_S4x32x4x32_0_1_2_3
        (broadcastInDim S1x32x1x32 ![1, 3] bcast_S32x32_S1x32x1x32_1_3 W)))
      shapeCasts_S4x32x4x32_S128x128

/-- Its entry (k, q): the identity's entry for the two block numbers times W's entry for the two positions inside the blocks. -/
theorem blockW_apply (W : S32x32.Idx → EReal) (k q : Fin 128) :
    blockW W (ix2 k q) = (if (⟨k.val / 32, by omega⟩ : Fin 4) = (⟨q.val / 32, by omega⟩ : Fin 4) then (1 : EReal) else 0)
      * W (ix2 (⟨k.val % 32, by omega⟩ : Fin 32) (⟨q.val % 32, by omega⟩ : Fin 32)) := by
  unfold blockW
  refine (Cert.Lib.Kron.kron_apply bcast_S4x4_S4x1x4x1_0_2 bcast_S32x32_S1x32x1x32_1_3 bcast_S4x1x4x1_S4x32x4x32_0_1_2_3
    bcast_S1x32x1x32_S4x32x4x32_0_1_2_3 shapeCasts_S4x32x4x32_S128x128 _ W k q).trans ?_
  rw [Cert.Lib.Kron.eye_apply bcast_S_S4x4]

/-- Packing four rows, applying the combine to the packed rows with the block-diagonal weight, and unpacking is the layer's output. -/
theorem unpack_packed (agg x1 : S100000x32.Idx → EReal) (W : S32x32.Idx → EReal) (n : Fin 100000) (d : Fin 32) :
    shapeCast S100000x32 (packed (shapeCast S25000x128 agg shapeCasts_S100000x32_S25000x128) (shapeCast S25000x128 x1 shapeCasts_S100000x32_S25000x128) (blockW W))
      shapeCasts_S25000x128_S100000x32 (ix2 n d) = outAt agg x1 W n d := by
  have hn : n.val < 100000 := n.isLt
  have hd : d.val < 32 := d.isLt
  refine (Cert.Lib.Kron.unpack_apply shapeCasts_S25000x128_S100000x32 _ n d).trans ?_
  show packedAt _ _ _ (⟨n.val / 4, by omega⟩ : Fin 25000) (⟨(n.val % 4) * 32 + d.val, by omega⟩ : Fin 128) = _
  unfold packedAt outAt
  have hrow : ∀ (y : S100000x32.Idx → EReal) (k : Fin 128),
      shapeCast S25000x128 y shapeCasts_S100000x32_S25000x128 (ix2 (⟨n.val / 4, by omega⟩ : Fin 25000) k)
        = y (ix2 (⟨4 * (n.val / 4) + k.val / 32, by have := k.isLt; omega⟩ : Fin 100000) (⟨k.val % 32, by have := k.isLt; omega⟩ : Fin 32)) :=
    fun y k => Cert.Lib.Kron.pack_apply shapeCasts_S100000x32_S25000x128 y _ k
  have hnn : ∀ (y : S100000x32.Idx → EReal),
      shapeCast S25000x128 y shapeCasts_S100000x32_S25000x128 (ix2 (⟨n.val / 4, by omega⟩ : Fin 25000) (⟨(n.val % 4) * 32 + d.val, by omega⟩ : Fin 128)) = y (ix2 n d) := by
    intro y
    refine (hrow y _).trans (congrArg y ?_)
    funext a
    match a with
    | ⟨0, _⟩ => exact Fin.ext (by show 4 * (n.val / 4) + ((n.val % 4) * 32 + d.val) / 32 = n.val; omega)
    | ⟨1, _⟩ => exact Fin.ext (by show ((n.val % 4) * 32 + d.val) % 32 = d.val; omega)
  rw [hnn agg, hnn x1]
  show _ = Ideal.ofBits .f32 0x3F7228A7#32 * (Ideal.ofBits .f32 0x3F666666#32 * agg (ix2 n d) + Ideal.ofBits .f32 0x3DCCCCCD#32 * x1 (ix2 n d)) + _
  congr 2
  -- the contraction over the 128 lanes keeps the block on the diagonal
  have hsum := Cert.Lib.Kron.sum_blockdiag
    (fun (a : Fin 4) (j : Fin 32) => combAt agg x1 (⟨4 * (n.val / 4) + a.val, by have := a.isLt; omega⟩ : Fin 100000) j)
    (fun (j e : Fin 32) => W (ix2 j e)) (⟨n.val % 4, by omega⟩ : Fin 4) d
  refine Eq.trans (Finset.sum_congr rfl fun k _ => ?_) (hsum.trans (Finset.sum_congr rfl fun j _ => ?_))
  · rw [hrow agg k, hrow x1 k, blockW_apply]
    have hq1 : (⟨((n.val % 4) * 32 + d.val) / 32, by omega⟩ : Fin 4) = ⟨n.val % 4, by omega⟩ := Fin.ext (by show ((n.val % 4) * 32 + d.val) / 32 = n.val % 4; omega)
    have hq2 : (⟨((n.val % 4) * 32 + d.val) % 32, by omega⟩ : Fin 32) = d := Fin.ext (by show ((n.val % 4) * 32 + d.val) % 32 = d.val; omega)
    rw [hq1, hq2]
    rfl
  · have hb : (⟨4 * (n.val / 4) + n.val % 4, by omega⟩ : Fin 100000) = n := Fin.ext (by show 4 * (n.val / 4) + n.val % 4 = n.val; omega)
    show combAt agg x1 (⟨4 * (n.val / 4) + n.val % 4, by omega⟩ : Fin 100000) j * W (ix2 j d) = _
    rw [hb]

/-- The reference's combination stage over an arbitrary neighbour sum. -/
theorem comb_stage (agg x1 : Cert.ReferenceIdeal.S100000x32.Idx → EReal) (i : Cert.ReferenceIdeal.S100000x32.Idx) :
    addf (mulf (Cert.ReferenceIdeal.Read.val_main_v14 (F := Ideal)) agg) (mulf (Cert.ReferenceIdeal.Read.val_main_v16 (F := Ideal)) x1) i
      = Ideal.ofBits .f32 0x3F666666#32 * agg i + Ideal.ofBits .f32 0x3DCCCCCD#32 * x1 i := by
  rw [addf_apply, mulf_apply, mulf_apply, Cert.ReferenceIdeal.Read.val_main_v14_apply, Cert.ReferenceIdeal.Read.val_main_v16_apply,
    Cert.ReferenceIdeal.Read.val_main_cst_1_apply, Cert.ReferenceIdeal.Read.val_main_cst_2_apply]
  rfl

/-- The reference's result at (n, d) is the layer's output of the neighbour sum it computes. -/
theorem ref_apply (x0 x1 : (⟨Cert.ReferenceIdeal.S100000x32, .f32⟩ : BufTy).Contents (Elt Ideal)) (x2 : (⟨Cert.ReferenceIdeal.S2x1600000, .i32⟩ : BufTy).Contents (Elt Ideal))
    (x3 : (⟨Cert.ReferenceIdeal.S32x32, .f32⟩ : BufTy).Contents (Elt Ideal)) (n : Fin 100000) (d : Fin 32) :
    Cert.ReferenceIdeal.Read.val_main_v24 (F := Ideal) x0 x1 x2 x3 (ix2 n d)
      = outAt (Cert.ReferenceIdeal.Read.val_main_v13 (F := Ideal) x0 x2) x1 x3 n d := by
  have hl : ∀ k : Fin 32, Cert.ReferenceIdeal.Read.lidx_main_v21 (ix2 n d) k = ix2 n k := fun k =>
    funext fun a => Fin.ext (by match a with | ⟨0, _⟩ => rfl | ⟨1, _⟩ => rfl)
  have hr : ∀ k : Fin 32, Cert.ReferenceIdeal.Read.ridx_main_v21 (ix2 n d) k = ix2 k d := fun k =>
    funext fun a => Fin.ext (by match a with | ⟨0, _⟩ => rfl | ⟨1, _⟩ => rfl)
  have h18 : ∀ i : Cert.ReferenceIdeal.S100000x32.Idx, Cert.ReferenceIdeal.Read.val_main_v18 (F := Ideal) x0 x1 x2 i
      = Ideal.ofBits .f32 0x3F666666#32 * Cert.ReferenceIdeal.Read.val_main_v13 (F := Ideal) x0 x2 i + Ideal.ofBits .f32 0x3DCCCCCD#32 * x1 i :=
    fun i => comb_stage (Cert.ReferenceIdeal.Read.val_main_v13 (F := Ideal) x0 x2) x1 i
  rw [Cert.ReferenceIdeal.Read.val_main_v24_apply, Cert.ReferenceIdeal.Read.val_main_v20_apply, Cert.ReferenceIdeal.Read.val_main_v23_apply,
    Cert.ReferenceIdeal.Read.val_main_v21_apply, Cert.ReferenceIdeal.Read.val_main_v19_apply, Cert.ReferenceIdeal.Read.val_main_v22_apply,
    Cert.ReferenceIdeal.Read.val_main_cst_3_apply, Cert.ReferenceIdeal.Read.val_main_cst_4_apply]
  have hs : (∑ k : Fin 32, Cert.ReferenceIdeal.Read.val_main_v18 (F := Ideal) x0 x1 x2 (Cert.ReferenceIdeal.Read.lidx_main_v21 (ix2 n d) k) * x3 (Cert.ReferenceIdeal.Read.ridx_main_v21 (ix2 n d) k))
      = ∑ j : Fin 32, combAt (Cert.ReferenceIdeal.Read.val_main_v13 (F := Ideal) x0 x2) x1 n j * x3 (ix2 j d) :=
    Finset.sum_congr rfl fun k _ => by
      rw [hl k, hr k, h18]
      rfl
  rw [hs, h18]
  generalize Cert.ReferenceIdeal.Read.val_main_v13 (F := Ideal) x0 x2 = agg
  rfl

end Cert.KernelIdeal.Hand
end
-- ==== Proof.Result.lean ====
import proofs.«181893_j34591666602120_2_alg».proof.Proof.Gen.KernelIdeal.Frame
import proofs.«181893_j34591666602120_2_alg».proof.Proof.Gen.ReferenceIdeal.Read
import proofs.«181893_j34591666602120_2_alg».proof.Proof.KernelRun
import proofs.«181893_j34591666602120_2_alg».proof.Proof.Value
import Idealize.ShloMosaic.Lib.Pipeline.Value
import Idealize.ShloMosaic.Lib.ValueIdx
import Idealize.ShloMosaic.Lib.StableHlo.Run
import Idealize.ShloMosaic.Lib.Tactic

/-! The arrays the region finds, and the kernel program's result as the reference's function.

Before the region the program computes three arrays: the neighbour sum reshaped to [25000,128] — the same gather and scatter-add of
the same arguments as the reference's, named by the reference's own stage and never opened —, the initial features reshaped the same
way, and the Kronecker product of the 4×4 identity with the weight.  With these the program's result is, index by index, the
reference's result of the same arguments. -/

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- The weight the region finds: the Kronecker product of the 4×4 identity with the [32,32] weight argument. -/
theorem v22 (c : Dev nD) : (V m c main_v22 : S128x128.Idx → EReal) = blockW (m ((c : Thread nD τ).loc main_arg3)) := by
  dsimp only [Gen.V, Gen.V0]
  simp only [Gen.hostOps0, Gen.hostOps0_1, List.flatten_cons, List.flatten_nil, List.append_nil, List.cons_append, List.nil_append]
  after_results
  rfl

/-- The packed features the region finds: the second argument, reshaped. -/
theorem v15 (c : Dev nD) : (V m c main_v15 : S25000x128.Idx → EReal) = shapeCast S25000x128 (m ((c : Thread nD τ).loc main_arg1)) shapeCasts_S100000x32_S25000x128 := by
  dsimp only [Gen.V, Gen.V0]
  simp only [Gen.hostOps0, Gen.hostOps0_1, List.flatten_cons, List.flatten_nil, List.append_nil, List.cons_append, List.nil_append]
  after_results
  rfl

set_option maxHeartbeats 4000000 in
/-- The packed aggregate the region finds: the neighbour sum the reference also computes, reshaped. -/
theorem v14 (c : Dev nD) : (V m c main_v14 : S25000x128.Idx → EReal) =
    shapeCast S25000x128 (Cert.ReferenceIdeal.Read.val_main_v13 (F := Ideal) (m ((c : Thread nD τ).loc main_arg0)) (m ((c : Thread nD τ).loc main_arg2))) shapeCasts_S100000x32_S25000x128 := by
  dsimp only [Gen.V, Gen.V0]
  simp only [Gen.hostOps0, Gen.hostOps0_1, List.flatten_cons, List.flatten_nil, List.append_nil, List.cons_append, List.nil_append]
  after_results_simp
  rfl

/-- The kernel program's result is the reference's function of the same arguments. -/
theorem result_eq (c : Dev nD) :
    result m c = Cert.ReferenceIdeal.Read.val_main_v24 (F := Ideal) (m ((c : Thread nD τ).loc main_arg0)) (m ((c : Thread nD τ).loc main_arg1))
      (m ((c : Thread nD τ).loc main_arg2)) (m ((c : Thread nD τ).loc main_arg3)) := by
  funext i
  obtain ⟨n, d, rfl⟩ : ∃ (n : Fin 100000) (d : Fin 32), i = ix2 n d := ⟨i 0, i 1, eq_ix2 i⟩
  unfold result
  rw [v14 m c, v15 m c, v22 m c]
  exact (unpack_packed _ _ _ n d).trans (ref_apply _ _ _ _ n d).symm

end Cert.KernelIdeal.Hand
end
-- ==== Proof.lean ====
/- Equivalence of a GCNII layer's packed kernel and its plain reference over the extended reals.

   Both programs form the neighbour sum agg (a gather of x at the edges' sources, a scatter-add at their targets) with the same host
   operations, then comb = c₁·agg + c₂·x₀ and out = c₃·comb + c₄·(comb·W).  The kernel's program reshapes agg and x₀ from
   [100000,32] to [25000,128] (four rows packed into one), multiplies by the block-diagonal I₄ ⊗ W inside a five-point grid, and
   reshapes back; the reference multiplies by W directly.  At the ideal values the two narrowings to bf16 are the identity, the
   four scalars are the same f32 words on both sides, and the contraction with I₄ ⊗ W keeps exactly the diagonal block, because
   x·(0·w) = 0 for every extended real: no finiteness of the inputs is used.

   Proof/Payload.lean reads the kernel body at one element, Proof/Blocks.lean assembles the five blocks into the region's result
   array, Proof/KernelRun.lean reads the reshape after the region off the generated frame run, Proof/LibKron.lean holds the general
   facts on the Kronecker product and on row packing, Proof/Value.lean proves the two index-by-index formulas equal, and
   Proof/Result.lean names the arrays the region finds.  The three frames are the generated ones (the reference's is its generated
   run with the result dropped); the ideal pass rewrote nothing, so the preservation claim is trivial. -/
import proofs.«181893_j34591666602120_2_alg».proof.Defs
import proofs.«181893_j34591666602120_2_alg».proof.Proof.Gen.Kernel
import proofs.«181893_j34591666602120_2_alg».proof.Proof.Gen.Kernel.Skeleton
import proofs.«181893_j34591666602120_2_alg».proof.Proof.Gen.Kernel.Launch
import proofs.«181893_j34591666602120_2_alg».proof.Proof.Gen.Kernel.Points
import proofs.«181893_j34591666602120_2_alg».proof.Proof.Gen.Kernel.Frame
import proofs.«181893_j34591666602120_2_alg».proof.Proof.Gen.KernelIdeal
import proofs.«181893_j34591666602120_2_alg».proof.Proof.Gen.KernelIdeal.Skeleton
import proofs.«181893_j34591666602120_2_alg».proof.Proof.Gen.KernelIdeal.Launch
import proofs.«181893_j34591666602120_2_alg».proof.Proof.Gen.KernelIdeal.Points
import proofs.«181893_j34591666602120_2_alg».proof.Proof.Gen.KernelIdeal.Frame
import proofs.«181893_j34591666602120_2_alg».proof.Proof.Gen.ReferenceIdeal
import proofs.«181893_j34591666602120_2_alg».proof.Proof.Gen.Pre_finite_inputs
import proofs.«181893_j34591666602120_2_alg».proof.Proof.Gen.ReferenceIdeal.Run
import proofs.«181893_j34591666602120_2_alg».proof.Proof.Gen.ReferenceIdeal.Read
import proofs.«181893_j34591666602120_2_alg».proof.Proof.Result
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer's output of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2]
  exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
